-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384 : Shape := ⟨1, ![16384]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S16384x3 .f32) (main_arg1 : FVec F S16384x3 .f32) (main_arg2 : FVec F S16384 .f32) (main_arg3 : FVec F S16384 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S16384x3 : Shape := ⟨2, ![16384, 3]⟩
abbrev S16384 : Shape := ⟨1, ![16384]⟩
abbrev S16384x1 : Shape := ⟨2, ![16384, 1]⟩
abbrev S16x1x16384 : Shape := ⟨3, ![16, 1, 16384]⟩
abbrev S1024x3 : Shape := ⟨2, ![1024, 3]⟩
abbrev S1024x1 : Shape := ⟨2, ![1024, 1]⟩
abbrev S1x1x1024 : Shape := ⟨3, ![1, 1, 1024]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S16x16384 : Shape := ⟨2, ![16, 16384]⟩
abbrev S_ : Shape := ⟨0, ![]⟩

abbrev nBuf : Space → Nat
  | .hbm => 31
  | .vmem => 9
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384, .f32⟩
  | .hbm, ⟨3, _⟩ => ⟨S16384, .f32⟩
  | .hbm, ⟨4, _⟩ => ⟨S16384x1, .f32⟩
  | .hbm, ⟨5, _⟩ => ⟨S16x1x16384, .f32⟩
  | .hbm, ⟨6, _⟩ => ⟨S16384, .f32⟩
  | .hbm, ⟨7, _⟩ => ⟨S16x16384, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_cst_7 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  transposes_S1024x3_p1_0_S3x1024 : S1024x3.Transposes [1, 0] S3x1024
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16384x1_S16384 : S16384x1.ShapeCasts S16384
  shapeCasts_S16x1x16384_S16x16384 : S16x1x16384.ShapeCasts S16x16384
  reducesTo_S16x16384_S16384_d0 : S16x16384.ReducesTo [0] S16384
  h_S_ : 0 < S_.numel
  reducesTo_S16384_S_d0 : S16384.ReducesTo [0] S_
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x16384.size a
  hwx0_3 : ∀ i : grid0.Coords, EltTy.bits .f32 = 32 ∨ (Rect.block (s := S16x1x16384) S1x1x1024.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16384x3 : Shape := ⟨2, ![16384, 3]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384, .f32⟩
  | .hbm, ⟨3, _⟩ => ⟨S16384, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S3x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_cst_12 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.RefRun.lean ====
/-
  The reference program's run, read back: every weakly fair execution of the reference ends with its scalar result at the
  composed term of its operations, and with the argument arrays unchanged. Dropping the result gives the reference's frame.
-/
import proofs.«157775_j26027501814344_2_alg».proof.Defs
import proofs.«157775_j26027501814344_2_alg».proof.Proof.Gen.ReferenceIdeal
import proofs.«157775_j26027501814344_2_alg».proof.Proof.Gen.Pre_finite_inputs
import proofs.«157775_j26027501814344_2_alg».proof.Proof.Gen.ReferenceIdeal.Run
import proofs.«157775_j26027501814344_2_alg».proof.Proof.Gen.ReferenceIdeal.Read
-- ==== Proof.LibMinReduce.lean ====
/-
  A minimum taken over one axis, at the extended reals, characterised by its universal property.

  On the extended reals a fold of `min` over a finite index set starting from the top element `+∞` is the greatest lower
  bound of the folded values: `z ≤ fold ↔ ∀ k, z ≤ f k`. Both a vector reduction by `minimumf` over one axis and a
  one-operand host reduction with a minimum body over one axis are such folds over that axis's coordinates, whatever order
  the definitions traverse them in (`min` commutes and associates). Two minima over index sets that cover the same values are
  therefore equal by `eq_of_forall_le_iff`, with no rearrangement of folds.
-/
import Idealize.ShloMosaic.PureOps.Ideal.Laws
import Idealize.ShloMosaic.PureOps.Reduce

noncomputable section

namespace Idealize.ShloMosaic.MinReduce

open Idealize.ShloMosaic

/-- The f32 pattern of `+∞` denotes the top extended real. -/
theorem ofBits_inf_f32 : Ideal.ofBits .f32 0x7F800000#32 = (⊤ : EReal) := by
  simp [Ideal.ofBits, Ideal.ieee]

/-- A fold of `min` from `⊤` over all of a finite type is the greatest lower bound of the values. -/
theorem le_fold_min_top {ι : Type*} [Fintype ι] (f : ι → EReal) (z : EReal) :
    z ≤ (Finset.univ : Finset ι).fold min (⊤ : EReal) f ↔ ∀ k, z ≤ f k := by
  rw [Finset.le_fold_min]
  exact ⟨fun h k => h.2 k (Finset.mem_univ k), fun h => ⟨le_top, fun k _ => h k⟩⟩

/-- A vector reduction by `minimumf` over ONE axis, read at the extended reals: the fold of `min` from the accumulator's
    value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- So an f32 vector reduction by `minimumf` from `+∞` over one axis is, at each kept index, the greatest lower bound of
    the source along that axis. -/
theorem le_multiReduction_min {s t : Shape} {a : Fin s.rank} (src : FVec Ideal s .f32)
    (h : s.Reduces [a] t) (hφ : FKind.Formats .f32) (hacc : (0x7F800000#32 : BitVec 32) = FKind.minimumf.neutral .f32 hφ)
    (j : t.Idx) (z : EReal) :
    z ≤ multiReduction .minimumf [a] t src 0x7F800000#32 h hφ hacc j ↔ ∀ k : Fin (s.size a), z ≤ src (h.lift j k) := by
  rw [multiReduction_minimumf_single]
  show z ≤ (Finset.univ : Finset (Fin (s.size a))).fold min (Ideal.ofBits .f32 0x7F800000#32) (src ∘ h.lift j) ↔ _
  rw [ofBits_inf_f32]
  exact le_fold_min_top _ z

/-- The host's one-operand reduction with a minimum body from `+∞` over one axis likewise. -/
theorem le_hostReduce_min {s t u : Shape} {a : Fin s.rank} (x : s.Idx → Ideal .f32) (h' : s.ReducesTo [a] t)
    (h : s.Reduces [a] t) (hu : 0 < u.numel) (j : t.Idx) (z : EReal) :
    z ≤ Host.reduce (FloatOps.minimumf (F := Ideal) (φ := .f32)) x (constant u .f32 0x7F800000#32) h' hu j
      ↔ ∀ k : Fin (s.size a), z ≤ x (h.lift j k) := by
  rw [Host.reduce_eq_fold_single (FloatOps.minimumf (F := Ideal) (φ := .f32)) x _ h' h hu]
  show z ≤ (Finset.univ : Finset (Fin (s.size a))).fold min (Ideal.ofBits .f32 0x7F800000#32) (x ∘ h.lift j) ↔ _
  rw [ofBits_inf_f32]
  exact le_fold_min_top _ z

end Idealize.ShloMosaic.MinReduce

end
-- ==== Proof.Dist.lean ====
/-
  The mathematics both programs compute, free of either program.

  For two clouds `P`, `G` of 16384 three-coordinate points, the clamped squared distance
      d(r, c) = max ((|P_r|² + |G_c|²) − 2 · ⟨P_r, G_c⟩, 0)
  and its minimum along each direction: for each point of `P` the least distance to `G` (`rowMin`), for each point of `G`
  the least distance to `P` (`colMin`). Minima are infima on the extended reals, so each is determined by its universal
  property `z ≤ ⨅ f ↔ ∀ k, z ≤ f k`.

  Two laws join a computation done tile by tile (16 × 16 tiles of 1024 × 1024 entries) to the whole-array minima:
  * a running minimum along a row, carried across the 16 column blocks starting from `+∞`, is after block `j` the greatest
    lower bound of the row's entries in columns below `1024 (j + 1)`, hence after the last block the row's minimum;
  * the minimum over the 16 row blocks of the per-block column minima is the column's minimum.
  Both hold because every index below 16384 is point `p` of block `i` for exactly one `(i, p)`; they use only the order
  (`min` is the lattice meet, `+∞` its identity), never finiteness.
-/
import Idealize.ShloMosaic.PureOps.Ideal
import Idealize.ShloMosaic.Lib.ValueIdx

noncomputable section

namespace Chamfer

open Idealize.ShloMosaic Idealize.ShloMosaic.ValueIdx

/-- The squared length of point `r` of a block of three-coordinate points. -/
def sqnorm {n : ℕ} (X : (⟨2, ![n, 3]⟩ : Shape).Idx → EReal) (r : Fin n) : EReal :=
  ∑ k : Fin 3, X (ix2 r k) * X (ix2 r k)

/-- The inner product of point `r` of one block with point `c` of another. -/
def dotp {n m : ℕ} (X : (⟨2, ![n, 3]⟩ : Shape).Idx → EReal) (Y : (⟨2, ![m, 3]⟩ : Shape).Idx → EReal) (r : Fin n)
    (c : Fin m) : EReal :=
  ∑ k : Fin 3, X (ix2 r k) * Y (ix2 c k)

/-- The clamped squared distance between point `r` of `X` and point `c` of `Y`, grouped as both programs compute it:
    the two squared lengths added first, twice the inner product subtracted, the result clamped below at zero. -/
def sqdist {n m : ℕ} (X : (⟨2, ![n, 3]⟩ : Shape).Idx → EReal) (Y : (⟨2, ![m, 3]⟩ : Shape).Idx → EReal) (r : Fin n)
    (c : Fin m) : EReal :=
  max ((sqnorm X r + sqnorm Y c) - Ideal.ofBits .f32 0x40000000#32 * dotp X Y r c) (Ideal.ofBits .f32 0x00000000#32)

/-- A cloud of 16384 points. -/
abbrev Cloud := (⟨2, ![16384, 3]⟩ : Shape).Idx → EReal

/-- Point `p` of block `i`, of the 16 blocks of 1024 consecutive points. -/
def pt (i : Fin 16) (p : Fin 1024) : Fin 16384 := ⟨1024 * i.val + p.val, by have := i.isLt; have := p.isLt; omega⟩

theorem pt_val (i : Fin 16) (p : Fin 1024) : (pt i p).val = 1024 * i.val + p.val := rfl

/-- Every point is point `r % 1024` of block `r / 1024`. -/
theorem pt_div_mod (r : Fin 16384) :
    pt ⟨r.val / 1024, by have := r.isLt; omega⟩ ⟨r.val % 1024, Nat.mod_lt _ (by decide)⟩ = r :=
  Fin.ext (by rw [pt_val]; show 1024 * (r.val / 1024) + r.val % 1024 = r.val; omega)

/-- For each point of `P`, the least distance to a point of `G`. -/
def rowMin (P G : Cloud) (r : Fin 16384) : EReal := ⨅ c : Fin 16384, sqdist P G r c

/-- For each point of `G`, the least distance to a point of `P`. -/
def colMin (P G : Cloud) (c : Fin 16384) : EReal := ⨅ r : Fin 16384, sqdist P G r c

/-- For each point of `G`, the least distance to a point of block `i` of `P`. -/
def colMinBlock (P G : Cloud) (i : Fin 16) (c : Fin 16384) : EReal := ⨅ p : Fin 1024, sqdist P G (pt i p) c

theorem le_rowMin (P G : Cloud) (r : Fin 16384) (z : EReal) : z ≤ rowMin P G r ↔ ∀ c, z ≤ sqdist P G r c := le_iInf_iff
theorem le_colMin (P G : Cloud) (c : Fin 16384) (z : EReal) : z ≤ colMin P G c ↔ ∀ r, z ≤ sqdist P G r c := le_iInf_iff
theorem le_colMinBlock (P G : Cloud) (i : Fin 16) (c : Fin 16384) (z : EReal) :
    z ≤ colMinBlock P G i c ↔ ∀ p, z ≤ sqdist P G (pt i p) c := le_iInf_iff

/-- `v` is the greatest lower bound of `f` over the indices below `n`. -/
def LowerUpTo (f : Fin 16384 → EReal) (n : ℕ) (v : EReal) : Prop :=
  ∀ z, z ≤ v ↔ ∀ c : Fin 16384, c.val < n → z ≤ f c

/-- Over no indices the greatest lower bound is `+∞`. -/
theorem lowerUpTo_zero (f : Fin 16384 → EReal) : LowerUpTo f 0 ⊤ :=
  fun z => ⟨fun _ c hc => absurd hc (Nat.not_lt_zero _), fun _ => le_top⟩

/-- The step of a running minimum: if `prev` bounds the entries below column `1024 j` and `v` is the meet of `prev` with block
    `j`'s entries, then `v` bounds the entries below column `1024 (j + 1)`. -/
theorem lowerUpTo_step (f : Fin 16384 → EReal) (j : Fin 16) (prev v : EReal) (hp : LowerUpTo f (1024 * j.val) prev)
    (hv : ∀ z, z ≤ v ↔ z ≤ prev ∧ ∀ q : Fin 1024, z ≤ f (pt j q)) : LowerUpTo f (1024 * (j.val + 1)) v := by
  intro z
  rw [hv z, hp z]
  constructor
  · rintro ⟨h1, h2⟩ c hc
    by_cases hlt : c.val < 1024 * j.val
    · exact h1 c hlt
    · have e : c = pt j ⟨c.val - 1024 * j.val, by omega⟩ := Fin.ext (by rw [pt_val]; show c.val = 1024 * j.val + (c.val - 1024 * j.val); omega)
      rw [e]; exact h2 _
  · intro h
    refine ⟨fun c hc => h c (by omega), fun q => h (pt j q) ?_⟩
    rw [pt_val]; have := q.isLt; omega

/-- After the last block the running minimum is the row's minimum. -/
theorem lowerUpTo_full (f : Fin 16384 → EReal) (v : EReal) (h : LowerUpTo f 16384 v) : v = ⨅ c, f c :=
  eq_of_forall_le_iff fun z => (h z).trans
    ⟨fun hz => le_iInf fun c => hz c c.isLt, fun hz c _ => (le_iInf_iff.mp hz) c⟩

/-- The column minimum from block minima: a value that is the meet of the 16 per-block column minima at column `c` is the
    column's minimum over all 16384 points. -/
theorem colMin_of_blocks (P G : Cloud) (c : Fin 16384) (v : EReal)
    (hv : ∀ z, z ≤ v ↔ ∀ i : Fin 16, z ≤ colMinBlock P G i c) : v = colMin P G c :=
  eq_of_forall_le_iff fun z => by
    rw [hv z, le_colMin]
    constructor
    · intro h r
      have := (le_colMinBlock P G _ c z).mp (h ⟨r.val / 1024, by have := r.isLt; omega⟩) ⟨r.val % 1024, Nat.mod_lt _ (by decide)⟩
      rwa [pt_div_mod] at this
    · intro h i
      exact (le_colMinBlock P G i c z).mpr fun p => h (pt i p)

end Chamfer

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.TileValue.lean ====
/-
  One tile of the pairwise squared-distance computation, read entry by entry at the extended reals.

  For a block `a` of 1024 points and a block `b` of 1024 points (three coordinates each) the body forms the 1024 × 1024 tile
      d(p, q) = max ((|a_p|² + |b_q|²) − 2 · ⟨a_p, b_q⟩, 0),
  `|a_p|²` and `|b_q|²` sums of three squares and `⟨a_p, b_q⟩` a sum of three products. From the tile it takes, for each row
  `p`, the minimum over the columns, folded into a carried column of running minima, and, for each column `q`, the minimum
  over the rows. Stated here: the tile at `(p, q)`, and each of the two minima by its universal property (the greatest
  lower bound of the entries it ranges over), which is the form the later induction over tiles and the comparison with the
  whole-array minima use.
-/
import proofs.«157775_j26027501814344_2_alg».proof.Proof.Gen.KernelIdeal.Skeleton
import proofs.«157775_j26027501814344_2_alg».proof.Proof.LibMinReduce
import proofs.«157775_j26027501814344_2_alg».proof.Proof.Dist
import proofs.«157775_j26027501814344_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open Idealize.ShloMosaic.ColumnLayout Idealize.ShloMosaic.MinReduce Chamfer

/-- A lane sum over the three coordinates, at row `p`. -/
theorem laneSum_apply (v : FVec Ideal S1024x3 .f32) (hr : S1024x3.Reduces [1] S1024) (hφ : FKind.Formats .f32)
    (hacc : (0x00000000#32 : BitVec 32) = FKind.add.neutral .f32 hφ) (p : Fin 1024) :
    multiReduction .add [1] S1024 v 0x00000000#32 hr hφ hacc (ix1 p) = ∑ k : Fin 3, v (ix2 p k) :=
  (Ideal.multiReduction_add_single v 0x00000000#32 hr hφ hacc (ix1 p)).trans
    (Finset.sum_congr rfl fun k _ => congrArg v (funext fun a => Fin.ext (by
      match a with
      | ⟨0, _⟩ => rfl
      | ⟨1, _⟩ => rfl)))

/-- The squared lengths of the first block, kept as a column and spread across the tile's columns: at `(p, q)` the squared
    length of point `p`. -/
theorem sqnormCol_apply (v : FVec Ideal S1024x3 .f32) (hr : S1024x3.Reduces [1] S1024) (hφ : FKind.Formats .f32)
    (hacc : (0x00000000#32 : BitVec 32) = FKind.add.neutral .f32 hφ) (hc : S1024.ShapeCasts S1024x1)
    (hb : S1024x1.Broadcasts S1024x1024) (p q : Fin 1024) :
    broadcastTo S1024x1024 (shapeCast S1024x1 (multiReduction .add [1] S1024 (mulf v v) 0x00000000#32 hr hφ hacc) hc) hb
      (ix2 p q) = sqnorm v p :=
  (broadcastTo_a1_ab_apply _ hb p q).trans
    ((shapeCast_a_a1_apply _ hc p 0).trans (laneSum_apply (mulf v v) hr hφ hacc p))

/-- The squared lengths of the second block, kept as a column, turned into a row and spread across the tile's rows: at
    `(p, q)` the squared length of point `q`. -/
theorem sqnormRow_apply (v : FVec Ideal S1024x3 .f32) (hr : S1024x3.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S1024x1024) (p q : Fin 1024) :
    broadcastTo S1024x1024
        (transpose S1x1024 [1, 0] (shapeCast S1024x1 (multiReduction .add [1] S1024 (mulf v v) 0x00000000#32 hr hφ hacc) hc) ht)
        hb (ix2 p q) = sqnorm v q :=
  (broadcastTo_1b_ab_apply _ hb p q).trans
    ((transpose_ix2_apply _ ht (0 : Fin 1) q).trans
      ((shapeCast_a_a1_apply _ hc q 0).trans (laneSum_apply (mulf v v) hr hφ hacc q)))

/-! ## The tile's matrix product -/

/-- Output coordinate 0 of the product is the left operand's row; -/
theorem lhsIdx_row (i : S1024x1024.Idx) (κ : dot_S1024x3_S3x1024_S1024x1024_1_0_0_1_n_n.contr.Idx) :
    (dot_S1024x3_S3x1024_S1024x1024_1_0_0_1_n_n.lhsIdx i κ 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl

/-- output coordinate 1 is the right operand's column. -/
theorem rhsIdx_col (i : S1024x1024.Idx) (κ : dot_S1024x3_S3x1024_S1024x1024_1_0_0_1_n_n.contr.Idx) :
    (dot_S1024x3_S3x1024_S1024x1024_1_0_0_1_n_n.rhsIdx i κ 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- The product of the first block with the transposed second block, accumulated into zero: at `(p, q)` the inner product
    of point `p` with point `q` (the contraction index is its one coordinate, the three point coordinates). -/
theorem dotTile_apply (x0 x1 : FVec Ideal S1024x3 .f32) (ht : S1024x3.Transposes [1, 0] S3x1024) (p q : Fin 1024) :
    matmul dot_S1024x3_S3x1024_S1024x1024_1_0_0_1_n_n (some .fp32) x0 (transpose S3x1024 [1, 0] x1 ht)
      (constant S1024x1024 .f32 0x00000000#32) (ix2 p q) = dotp x0 x1 p q := by
  simp only [matmul]
  rw [Ideal.matmul_constant_zero_apply,
    ← Equiv.sum_comp (contrEquiv1 dot_S1024x3_S3x1024_S1024x1024_1_0_0_1_n_n 3 rfl rfl).symm]
  unfold dotp
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p q)
      ((contrEquiv1 dot_S1024x3_S3x1024_S1024x1024_1_0_0_1_n_n 3 rfl rfl).symm k) = ix2 p k :=
    funext fun a => Fin.ext (by
      match a with
      | ⟨0, _⟩ => exact lhsIdx_row _ _
      | ⟨1, _⟩ => exact (dot_S1024x3_S3x1024_S1024x1024_1_0_0_1_n_n.lhsIdx_val_of_single rfl _ _).trans hk)
  have er : dot_S1024x3_S3x1024_S1024x1024_1_0_0_1_n_n.rhsIdx (ix2 p q)
      ((contrEquiv1 dot_S1024x3_S3x1024_S1024x1024_1_0_0_1_n_n 3 rfl rfl).symm k) = ix2 k q :=
    funext fun a => Fin.ext (by
      match a with
      | ⟨0, _⟩ => exact (dot_S1024x3_S3x1024_S1024x1024_1_0_0_1_n_n.rhsIdx_val_of_single rfl _ _).trans hk
      | ⟨1, _⟩ => exact rhsIdx_col _ _)
  rw [el, er, transpose_ix2_apply]

/-! ## The tile, and its two minima -/

/-- The tile at `(p, q)` is the clamped squared distance between point `p` of the first block and point `q` of the second. -/
theorem tile_apply (x0 x1 : Vec Ideal S1024x3 .f32) (p q : Fin 1024) :
    k0_pay2 (F := Ideal) x0 x1 (ix2 p q) = sqdist x0 x1 p q := by
  unfold k0_pay2 sqdist
  exact congrArg₂ max
    (congrArg₂ (· - ·)
      (congrArg₂ (· + ·) (sqnormCol_apply x0 _ _ _ _ _ p q) (sqnormRow_apply x1 _ _ _ _ _ _ p q))
      (congrArg (Ideal.ofBits .f32 0x40000000#32 * ·) (dotTile_apply x0 x1 _ p q)))
    rfl

/-- A minimum from `+∞` along the tile's rows (axis 0 reduced), at column `q`: the greatest lower bound of column `q`. -/
theorem le_colMin (src : FVec Ideal S1024x1024 .f32) (hr : S1024x1024.Reduces [0] S1024) (hφ : FKind.Formats .f32)
    (hacc : (0x7F800000#32 : BitVec 32) = FKind.minimumf.neutral .f32 hφ) (q : Fin 1024) (z : EReal) :
    z ≤ multiReduction .minimumf [0] S1024 src 0x7F800000#32 hr hφ hacc (ix1 q) ↔ ∀ p : Fin 1024, z ≤ src (ix2 p q) := by
  refine (le_multiReduction_min src hr hφ hacc (ix1 q) z).trans ?_
  have e : ∀ k : Fin 1024, hr.lift (ix1 q) k = ix2 k q := fun k => funext fun a => Fin.ext (by
    match a with
    | ⟨0, _⟩ => rfl
    | ⟨1, _⟩ => rfl)
  constructor
  · intro h p; have := h p; rwa [e p] at this
  · intro h k; rw [e k]; exact h k

/-- A minimum from `+∞` along the tile's columns (axis 1 reduced), at row `p`: the greatest lower bound of row `p`. -/
theorem le_rowMin (src : FVec Ideal S1024x1024 .f32) (hr : S1024x1024.Reduces [1] S1024) (hφ : FKind.Formats .f32)
    (hacc : (0x7F800000#32 : BitVec 32) = FKind.minimumf.neutral .f32 hφ) (p : Fin 1024) (z : EReal) :
    z ≤ multiReduction .minimumf [1] S1024 src 0x7F800000#32 hr hφ hacc (ix1 p) ↔ ∀ q : Fin 1024, z ≤ src (ix2 p q) := by
  refine (le_multiReduction_min src hr hφ hacc (ix1 p) z).trans ?_
  have e : ∀ k : Fin 1024, hr.lift (ix1 p) k = ix2 p k := fun k => funext fun a => Fin.ext (by
    match a with
    | ⟨0, _⟩ => rfl
    | ⟨1, _⟩ => rfl)
  constructor
  · intro h q; have := h q; rwa [e q] at this
  · intro h k; rw [e k]; exact h k

/-- The column minima the body writes out for a tile: at column `q`, the greatest lower bound, over the block's 1024 points
    `p`, of the distance from `p` to point `q` of the second block. -/
theorem le_colMinOut (x0 x1 : Vec Ideal S1024x3 .f32) (q : Fin 1024) (z : EReal) :
    z ≤ k0_pay4 (F := Ideal) x0 x1 (ix3 (0 : Fin 1) (0 : Fin 1) q) ↔ ∀ p : Fin 1024, z ≤ sqdist x0 x1 p q := by
  unfold k0_pay4
  rw [show ∀ (hc1 : S1024.ShapeCasts S1x1024) (hc2 : S1x1024.ShapeCasts S1x1x1024) (w : FVec Ideal S1024 .f32),
      shapeCast S1x1x1024 (shapeCast S1x1024 w hc1) hc2 (ix3 (0 : Fin 1) (0 : Fin 1) q) = w (ix1 q) from
    fun hc1 hc2 w => (shapeCast_ab_1ab_apply _ hc2 0 0 q).trans (shapeCast_a_1a_apply w hc1 0 q)]
  refine (le_colMin _ _ _ _ q z).trans (forall_congr' fun p => ?_)
  rw [tile_apply]

/-- The running row minima after a tile: at row `p`, below the carried value and below every distance from point `p` of the
    first block to the second block's 1024 points — the greatest such bound. -/
theorem le_rowMinAcc (x0 x1 : Vec Ideal S1024x3 .f32) (xs : Vec Ideal S1024x1 .f32) (p : Fin 1024) (z : EReal) :
    z ≤ k0_pay3 (F := Ideal) x0 x1 xs (ix2 p (0 : Fin 1))
      ↔ z ≤ xs (ix2 p (0 : Fin 1)) ∧ ∀ q : Fin 1024, z ≤ sqdist x0 x1 p q := by
  unfold k0_pay3
  rw [shapeCast_self]
  show z ≤ min (xs (ix2 p (0 : Fin 1))) (shapeCast S1024x1 _ _ (ix2 p (0 : Fin 1))) ↔ _
  rw [shapeCast_a_a1_apply, le_min_iff]
  refine and_congr Iff.rfl ((le_rowMin _ _ _ _ p z).trans (forall_congr' fun q => ?_))
  rw [tile_apply]

/-- The value the carried column is reset to at the first tile of a sweep: `+∞` in every row. -/
theorem reset_apply (i : S1024x1.Idx) : k0_pay1 (F := Ideal) i = (⊤ : EReal) := by
  unfold k0_pay1
  rw [shapeCast_self]
  exact ofBits_inf_f32

end Cert.KernelIdeal.Tile

end
-- ==== Proof.Pieces.lean ====
/-
  What each control case of the body leaves in each buffer, as a pure function of the blocks it read.

  The body has three cases over the sweep coordinate `j`: the first tile of a sweep (`j = 0`: the carried column of running
  row minima is first reset to `+∞`), a middle tile, and the last tile (`j = 15`: the carried column is also copied to the
  row-minimum output). In every case the column-minimum output receives the tile's column minima, and the carried column
  receives the running row minima: the minimum of what it held (the reset value, in the first case) and the tile's row
  minima. Each buffer is covered by whole-buffer stores, so what it holds afterwards is the last store's value.
-/
import proofs.«157775_j26027501814344_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a sweep: the carried column ends at the running row minima taken from the reset value. -/
theorem carried_first (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : cond0_0 i) (hc1 : ¬cond0_1 i)
    (x0 x1 : Vec F S1024x3 .f32) :
    sout0_A_0 c i arg2 harg2 arg3 harg3 arg4 harg4 arg5 harg5 arg6 harg6 hc0 hc1 x0 x1 = k0_pay3 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg6.read_unread,
    View.ld_unit_zero (S := S1024x3) hz2, View.ld_unit_zero (S := S1024x1) hz2, View.readCov_unit_zero (S := S1024x1) _ hz2]

/-- First tile of a sweep: the column-minimum output holds the tile's column minima. -/
theorem colOut_first (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : cond0_0 i) (hc1 : ¬cond0_1 i)
    (x0 x1 : Vec F S1024x3 .f32) :
    out0_A_3 c i arg2 harg2 arg3 harg3 arg4 harg4 arg5 harg5 arg6 harg6 hc0 hc1 x0 x1 = k0_pay4 x0 x1 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg6.read_unread,
    View.ld_unit_zero (S := S1024x3) hz2, View.ld_unit_zero (S := S1024x1) hz2, View.readCov_unit_zero (S := S1024x1) _ hz2]

/-- A middle tile: the carried column ends at the running row minima taken from what it held. -/
theorem carried_middle (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : ¬cond0_0 i) (hc1 : ¬cond0_1 i)
    (x0 x1 : Vec F S1024x3 .f32) (xs0 : Vec F S1024x1 .f32) :
    sout0_B_0 c i arg2 harg2 arg3 harg3 arg4 harg4 arg5 harg5 arg6 harg6 hc0 hc1 x0 x1 xs0 = k0_pay3 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread,
    View.ld_unit_zero (S := S1024x3) hz2, View.ld_unit_zero (S := S1024x1) hz2, View.readCov_unit_zero (S := S1024x1) _ hz2]

/-- A middle tile: the column-minimum output holds the tile's column minima. -/
theorem colOut_middle (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : ¬cond0_0 i) (hc1 : ¬cond0_1 i)
    (x0 x1 : Vec F S1024x3 .f32) (xs0 : Vec F S1024x1 .f32) :
    out0_B_3 c i arg2 harg2 arg3 harg3 arg4 harg4 arg5 harg5 arg6 harg6 hc0 hc1 x0 x1 xs0 = k0_pay4 x0 x1 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg6.read_unread,
    View.ld_unit_zero (S := S1024x3) hz2, View.ld_unit_zero (S := S1024x1) hz2, View.readCov_unit_zero (S := S1024x1) _ hz2]

/-- The last tile of a sweep: the carried column ends at the running row minima taken from what it held. -/
theorem carried_last (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : ¬cond0_0 i) (hc1 : cond0_1 i)
    (x0 x1 : Vec F S1024x3 .f32) (xs0 : Vec F S1024x1 .f32) :
    sout0_C_0 c i arg2 harg2 arg3 harg3 arg4 harg4 arg5 harg5 arg6 harg6 hc0 hc1 x0 x1 xs0 = k0_pay3 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S1024x3) hz2, View.ld_unit_zero (S := S1024x1) hz2, View.readCov_unit_zero (S := S1024x1) _ hz2]

/-- The last tile of a sweep: the row-minimum output receives a copy of the carried column as just updated. -/
theorem rowOut_last (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : ¬cond0_0 i) (hc1 : cond0_1 i)
    (x0 x1 : Vec F S1024x3 .f32) (xs0 : Vec F S1024x1 .f32) :
    out0_C_2 c i arg2 harg2 arg3 harg3 arg4 harg4 arg5 harg5 arg6 harg6 hc0 hc1 x0 x1 xs0 = k0_pay3 x0 x1 xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S1024x3) hz2, View.ld_unit_zero (S := S1024x1) hz2, View.readCov_unit_zero (S := S1024x1) _ hz2]

/-- The last tile of a sweep: the column-minimum output holds the tile's column minima. -/
theorem colOut_last (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1x1024 .f32) (harg5 : arg5.IsWhole) (arg6 : Memref sig .tc .vmem S1024x1 .f32) (harg6 : arg6.IsWhole) (hc0 : ¬cond0_0 i) (hc1 : cond0_1 i)
    (x0 x1 : Vec F S1024x3 .f32) (xs0 : Vec F S1024x1 .f32) :
    out0_C_3 c i arg2 harg2 arg3 harg3 arg4 harg4 arg5 harg5 arg6 harg6 hc0 hc1 x0 x1 xs0 = k0_pay4 x0 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread,
    View.ld_unit_zero (S := S1024x3) hz2, View.ld_unit_zero (S := S1024x1) hz2, View.readCov_unit_zero (S := S1024x1) _ hz2]

end Cert.KernelIdeal.Pieces

end
-- ==== Proof.Sweep.lean ====
/-
  What the kernel's buffers hold after each grid point, in terms of the two clouds.

  The grid is 16 × 16: point `t` is tile `(i, j) = (t / 16, t % 16)`, which reads block `i` of the first cloud `P` and block
  `j` of the second cloud `G` (1024 points each), so the tile's entry `(p, q)` is the distance between point `p` of block `i`
  of `P` and point `q` of block `j` of `G`. Sweeping `j` from 0 to 15 with `i` fixed, the carried column holds after tile
  `(i, j)`, at row `p`, the greatest lower bound of the distances from that point of `P` to the points of `G` in columns below
  `1024 (j + 1)` (induction on the point: reset to `+∞` at `j = 0`, then the meet with each tile's row minima). At `j = 15`
  that is the point's least distance to all of `G`, and it is what the row-minimum output receives. The column-minimum
  output receives, at every tile, the least distance from each of block `j`'s points of `G` to block `i` of `P`.
-/
import proofs.«157775_j26027501814344_2_alg».proof.Proof.Gen.KernelIdeal.Frame
import proofs.«157775_j26027501814344_2_alg».proof.Proof.TileValue
import proofs.«157775_j26027501814344_2_alg».proof.Proof.Pieces
import proofs.«157775_j26027501814344_2_alg».proof.Proof.Dist
import Idealize.ShloMosaic.Lib.Pipeline.Value

noncomputable section

namespace Cert.KernelIdeal.Sweep

open Cert.KernelIdeal Cert.KernelIdeal.Gen Idealize.ShloMosaic Idealize.ShloMosaic.TcCoe Idealize.SL.Sem
open Idealize.ShloMosaic.ValueIdx Chamfer

variable (m : (ℓ : Loc nD τ sig) → Buf (Elt Ideal) ℓ)

/-- The first cloud, as the kernel is launched with it. -/
abbrev P (c : Dev nD) : Cloud := m ((c : Thread nD τ).loc main_arg0)
/-- The second cloud. -/
abbrev G (c : Dev nD) : Cloud := m ((c : Thread nD τ).loc main_arg1)

/-- Grid point `t` is tile `(t / 16, t % 16)`. -/
def bi (t : Fin cfg0.N) : Fin 16 := ⟨t.val / 16, by have hN : cfg0.N = 256 := N_0; have := t.isLt; omega⟩
def bj (t : Fin cfg0.N) : Fin 16 := ⟨t.val % 16, Nat.mod_lt _ (by decide)⟩

/-- The printed index maps, decided over the grid: which block of each array a point's windows are on. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 3) = t.val / 16 ∧ win0_3.index t (1 : Fin 3) = 0 ∧ win0_3.index t (2 : Fin 3) = t.val % 16 :=
  (by decide +kernel : ∀ t : Fin grid0.N, _)

/-- The first window's block at point `t`, read at `(p, k)`: coordinate `k` of point `p` of block `t / 16` of `P`. -/
theorem blk0_apply (c : Dev nD) (t : Fin cfg0.N) (p : Fin 1024) (k : Fin 3) :
    (iblk m c 0 t : Vec Ideal S1024x3 .f32) (ix2 p k) = P m c (ix2 (pt (bi t) p) k) := by
  unfold iblk
  rw [View.read_apply]
  show V m c main_arg0 _ = m (c.tc.loc main_arg0) _
  unfold V
  congr 1
  funext a
  apply Fin.ext
  obtain ⟨e0, e1, -⟩ := idx_facts t
  match a with
  | ⟨0, _⟩ => show win0_0.index t 0 * 1024 + 1 * p.val = 1024 * (t.val / 16) + p.val; rw [e0]; omega
  | ⟨1, _⟩ => show win0_0.index t 1 * 3 + 1 * k.val = k.val; rw [e1]; omega

/-- The second window's block at point `t`, read at `(q, k)`: coordinate `k` of point `q` of block `t % 16` of `G`. -/
theorem blk1_apply (c : Dev nD) (t : Fin cfg0.N) (q : Fin 1024) (k : Fin 3) :
    (iblk m c 1 t : Vec Ideal S1024x3 .f32) (ix2 q k) = G m c (ix2 (pt (bj t) q) k) := by
  unfold iblk
  rw [View.read_apply]
  show V m c main_arg1 _ = m (c.tc.loc main_arg1) _
  unfold V
  congr 1
  funext a
  apply Fin.ext
  obtain ⟨-, -, e2, e3, -⟩ := idx_facts t
  match a with
  | ⟨0, _⟩ => show win0_1.index t 0 * 1024 + 1 * q.val = 1024 * (t.val % 16) + q.val; rw [e2]; omega
  | ⟨1, _⟩ => show win0_1.index t 1 * 3 + 1 * k.val = k.val; rw [e3]; omega

/-- So the tile's entry `(p, q)` at point `t` is the distance between those two points of the clouds. -/
theorem tile_sqdist (c : Dev nD) (t : Fin cfg0.N) (p q : Fin 1024) :
    sqdist (iblk m c 0 t : Vec Ideal S1024x3 .f32) (iblk m c 1 t : Vec Ideal S1024x3 .f32) p q
      = sqdist (P m c) (G m c) (pt (bi t) p) (pt (bj t) q) := by
  unfold sqdist sqnorm dotp
  simp only [blk0_apply, blk1_apply]

/-! ## What each point leaves, case by case -/

/-- The distances from point `p` of block `i` of `P` to every point of `G`: the row the carried column is a running minimum of. -/
abbrev rowOf (c : Dev nD) (i : Fin 16) (p : Fin 1024) : Fin 16384 → EReal :=
  fun cc => sqdist (P m c) (G m c) (pt i p) cc

/-- A tile's step on the carried column, in terms of the clouds: below the new value at row `p` iff below the old one and
    below every distance from that point of `P` to the points of block `j` of `G`. -/
theorem step_iff (c : Dev nD) (t : Fin cfg0.N) (xs : Vec Ideal S1024x1 .f32) (p : Fin 1024) (z : EReal) :
    z ≤ k0_pay3 (F := Ideal) (iblk m c 0 t) (iblk m c 1 t) xs (ix2 p (0 : Fin 1))
      ↔ z ≤ xs (ix2 p (0 : Fin 1)) ∧ ∀ q : Fin 1024, z ≤ rowOf m c (bi t) p (pt (bj t) q) :=
  (Tile.le_rowMinAcc (iblk m c 0 t) (iblk m c 1 t) xs p z).trans
    (and_congr Iff.rfl (forall_congr' fun q => by rw [tile_sqdist]))

/-- First tile of a sweep: the carried column is the step taken from the reset value. -/
theorem carried_A (c : Dev nD) (t : Fin cfg0.N) (h0 : t.val % 16 = 0) (h1 : ¬t.val % 16 = 15) :
    (outsAt0 m c t.val t.isLt).2.2 = k0_pay3 (F := Ideal) (iblk m c 0 t) (iblk m c 1 t) (k0_pay1 (F := Ideal)) :=
  (congrArg (fun x => x.2.2) (outsAt0_A m c t h0 h1)).trans
    (Pieces.carried_first (F := Ideal) c (grid0.coords t) (ms0_0 t) (hs0_0 t) (ms0_1 t) (hs0_1 t) (ms0_2 t) (hs0_2 t) (ms0_3 t) (hs0_3 t) scM0_0 (Memref.isWhole_whole _)
      ((hcond0_0 t).mpr h0) (fun h => h1 ((hcond0_1 t).mp h)) (iblk m c 0 t) (iblk m c 1 t))

/-- A middle tile: the step taken from what the point before left. -/
theorem carried_B (c : Dev nD) (t : Fin cfg0.N) (h0 : ¬t.val % 16 = 0) (h1 : ¬t.val % 16 = 15) :
    (outsAt0 m c t.val t.isLt).2.2 = k0_pay3 (F := Ideal) (iblk m c 0 t) (iblk m c 1 t)
      (outsAt0 m c (t.val - 1) (Nat.lt_of_le_of_lt (Nat.sub_le _ _) t.isLt)).2.2 := by
  rw [outsAt0_B m c t h0 h1]
  dsimp only
  exact Pieces.carried_middle (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2.2

/-- The last tile of a sweep: the same step. -/
theorem carried_C (c : Dev nD) (t : Fin cfg0.N) (h0 : ¬t.val % 16 = 0) (h1 : t.val % 16 = 15) :
    (outsAt0 m c t.val t.isLt).2.2 = k0_pay3 (F := Ideal) (iblk m c 0 t) (iblk m c 1 t)
      (outsAt0 m c (t.val - 1) (Nat.lt_of_le_of_lt (Nat.sub_le _ _) t.isLt)).2.2 := by
  rw [outsAt0_C m c t h0 h1]
  dsimp only
  exact Pieces.carried_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2.2

/-- At the last tile of a sweep the row-minimum output receives the carried column as just updated. -/
theorem rowOut_C (c : Dev nD) (t : Fin cfg0.N) (h0 : ¬t.val % 16 = 0) (h1 : t.val % 16 = 15) :
    (outsAt0 m c t.val t.isLt).1 = (outsAt0 m c t.val t.isLt).2.2 := by
  rw [outsAt0_C m c t h0 h1]
  dsimp only
  exact (Pieces.rowOut_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2.2).trans
    (Pieces.carried_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2.2).symm

/-- At every tile the column-minimum output receives the tile's column minima. -/
theorem colOut_eq (c : Dev nD) (t : Fin cfg0.N) :
    (outsAt0 m c t.val t.isLt).2.1 = k0_pay4 (F := Ideal) (iblk m c 0 t) (iblk m c 1 t) := by
  by_cases h0 : t.val % 16 = 0
  · have h1 : ¬t.val % 16 = 15 := by omega
    rw [outsAt0_A m c t h0 h1]
    dsimp only
    exact Pieces.colOut_first (F := Ideal) c (grid0.coords t) (ms0_0 t) (hs0_0 t) (ms0_1 t) (hs0_1 t) (ms0_2 t) (hs0_2 t) (ms0_3 t) (hs0_3 t) scM0_0 (Memref.isWhole_whole _)
      ((hcond0_0 t).mpr h0) (fun h => h1 ((hcond0_1 t).mp h)) (iblk m c 0 t) (iblk m c 1 t)
  · by_cases h1 : t.val % 16 = 15
    · rw [outsAt0_C m c t h0 h1]
      dsimp only
      exact Pieces.colOut_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2.2
    · rw [outsAt0_B m c t h0 h1]
      dsimp only
      exact Pieces.colOut_middle (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.2

/-! ## The carried column after each point -/

/-- The invariant of a sweep. After tile `(i, j)` the carried column holds, at row `p`, the greatest lower bound of the
    distances from point `p` of block `i` of `P` to the points of `G` in columns below `1024 (j + 1)`. By induction on the
    point: the first tile of a sweep starts from `+∞`, every later one from what the tile before left. -/
theorem carried_inv (c : Dev nD) (n : ℕ) : ∀ (h : n < cfg0.N) (i j : Fin 16) (hn : n = 16 * i.val + j.val) (p : Fin 1024),
    LowerUpTo (rowOf m c i p) (1024 * (j.val + 1)) ((outsAt0 m c n h).2.2 (ix2 p (0 : Fin 1))) := by
  induction n using Nat.strong_induction_on with
  | _ n ih =>
    intro h i j hn p
    have hj := j.isLt
    have hbi : bi ⟨n, h⟩ = i := Fin.ext (by show n / 16 = i.val; omega)
    have hbj : bj ⟨n, h⟩ = j := Fin.ext (by show n % 16 = j.val; omega)
    by_cases h0 : n % 16 = 0
    · have h1 : ¬n % 16 = 15 := by omega
      refine lowerUpTo_step _ j ⊤ _ ?_ fun z => ?_
      · rw [show 1024 * j.val = 0 from by omega]; exact lowerUpTo_zero _
      · rw [show (outsAt0 m c n h).2.2 = _ from carried_A m c ⟨n, h⟩ h0 h1, step_iff, hbi, hbj, Tile.reset_apply]
    · have ihp := ih (n - 1) (by omega) (by omega) i ⟨j.val - 1, by omega⟩
        (by show n - 1 = 16 * i.val + (j.val - 1); omega) p
      have hp : LowerUpTo (rowOf m c i p) (1024 * j.val)
          ((outsAt0 m c (n - 1) (Nat.lt_of_le_of_lt (Nat.sub_le _ _) h)).2.2 (ix2 p (0 : Fin 1))) := by
        rw [show 1024 * j.val = 1024 * (j.val - 1 + 1) from by omega]; exact ihp
      refine lowerUpTo_step _ j _ _ hp fun z => ?_
      by_cases h1 : n % 16 = 15
      · rw [show (outsAt0 m c n h).2.2 = _ from carried_C m c ⟨n, h⟩ h0 h1, step_iff, hbi, hbj]
      · rw [show (outsAt0 m c n h).2.2 = _ from carried_B m c ⟨n, h⟩ h0 h1, step_iff, hbi, hbj]

/-! ## The two outputs at each point -/

/-- At the last tile of a sweep the row-minimum output holds, at row `p`, the least distance from point `p` of block `i` of
    `P` to all of `G`. -/
theorem rowOut_value (c : Dev nD) (t : Fin cfg0.N) (h1 : t.val % 16 = 15) (p : Fin 1024) :
    (outsAt0 m c t.val t.isLt).1 (ix2 p (0 : Fin 1)) = rowMin (P m c) (G m c) (pt (bi t) p) := by
  have h0 : ¬t.val % 16 = 0 := by omega
  rw [rowOut_C m c t h0 h1]
  have inv := carried_inv m c t.val t.isLt (bi t) (bj t) (by show t.val = 16 * (t.val / 16) + t.val % 16; omega) p
  rw [show 1024 * ((bj t).val + 1) = 16384 from by show 1024 * (t.val % 16 + 1) = 16384; omega] at inv
  exact lowerUpTo_full _ _ inv

/-- At every tile the column-minimum output holds, at column `q`, the least distance from point `q` of block `j` of `G` to
    block `i` of `P`. -/
theorem colOut_value (c : Dev nD) (t : Fin cfg0.N) (q : Fin 1024) :
    (outsAt0 m c t.val t.isLt).2.1 (ix3 (0 : Fin 1) (0 : Fin 1) q) = colMinBlock (P m c) (G m c) (bi t) (pt (bj t) q) := by
  rw [colOut_eq m c t]
  exact eq_of_forall_le_iff fun z => (Tile.le_colMinOut (iblk m c 0 t) (iblk m c 1 t) q z).trans
    ((forall_congr' fun p => by rw [tile_sqdist]).trans (le_colMinBlock _ _ _ _ z).symm)

end Cert.KernelIdeal.Sweep

end
-- ==== Proof.Arrays.lean ====
/-
  The two result arrays of the kernel after the run, as whole-array functions of the clouds.

  The row-minimum array [16384, 1] is written back once per sweep, at the sweep's last tile `(i, 15)`, block `i` at a time;
  the 16 blocks tile it, and row `1024 i + p` ends at the least distance from that point of `P` to all of `G`. The
  column-minimum array [16, 1, 16384] is written back at every tile `(i, j)`, its block `(i, 0, j)`; the 256 blocks tile it,
  and entry `(i, 0, c)` ends at the least distance from point `c` of `G` to block `i` of `P`. Each array is the function
  `rowArr` / `colArr` below because every flushing point writes that function's block and every index lies in some
  flushing point's block.
-/
import proofs.«157775_j26027501814344_2_alg».proof.Proof.Sweep
import Idealize.ShloMosaic.Lib.Pipeline.Value

noncomputable section

namespace Cert.KernelIdeal.Arrays

open Cert.KernelIdeal Cert.KernelIdeal.Gen Cert.KernelIdeal.Sweep Idealize.ShloMosaic Idealize.ShloMosaic.TcCoe Idealize.SL.Sem
open Idealize.ShloMosaic.ValueIdx Chamfer
open Idealize.ShloMosaic.Pipeline (Dat)

variable (m : (ℓ : Loc nD τ sig) → Buf (Elt Ideal) ℓ)

/-- The row-minimum array: row `r` holds the least distance from point `r` of `P` to `G`. -/
def rowArr (c : Dev nD) : S16384x1.Idx → EReal :=
  fun i => rowMin (P m c) (G m c) ⟨(i 0).val, (i 0).isLt⟩

/-- The column-minimum array: entry `(i, 0, col)` holds the least distance from point `col` of `G` to block `i` of `P`. -/
def colArr (c : Dev nD) : S16x1x16384.Idx → EReal :=
  fun i => colMinBlock (P m c) (G m c) ⟨(i 0).val, (i 0).isLt⟩ ⟨(i 2).val, (i 2).isLt⟩

/-! ## The row-minimum array (window 2) -/

/-- What the last tile of sweep `i` leaves in the row-minimum buffer, at local row `y`, is `rowArr` at global row
    `1024 i + y`. -/
theorem rowOut_at (c : Dev nD) (t : Fin cfg0.N) (h1 : t.val % 16 = 15) (y : S1024x1.Idx) (r : S16384x1.Idx)
    (hr : (r 0).val = 1024 * (t.val / 16) + (y 0).val) : (outsAt0 m c t.val t.isLt).1 y = rowArr m c r := by
  obtain ⟨p, u, rfl⟩ : ∃ (p : Fin 1024) (u : Fin 1), y = ix2 p u := ⟨y 0, y 1, eq_ix2 y⟩
  obtain rfl : u = 0 := Subsingleton.elim _ _
  rw [rowOut_value m c t h1 p]
  unfold rowArr
  exact congrArg (rowMin (P m c) (G m c)) (Fin.ext hr.symm)

/-- A point that writes the row-minimum array back writes its block of `rowArr`. -/
theorem flushed_row (c : Dev nD) (t : Fin cfg0.N) (hf : (cfg0.win 2).flush t = true) :
    (dats m 0 c).flushed 2 t = ((cfg0.win 2).blk t).view.read (Elt Ideal) (rowArr m c) := by
  have h1 : t.val % 16 = 15 := (flush0_2 t).mp hf
  show (cfg0.win 2).cut (grid0.coords t) ((dats m 0 c).after 2 t) = _
  rw [after0_2]
  funext y
  show (outsAt0 m c t.val t.isLt).1 y = rowArr m c (((cfg0.win 2).blk t).view.emb y)
  obtain ⟨-, -, -, -, e4, -⟩ := idx_facts t
  exact rowOut_at m c t h1 y _
    (by show win0_2.index t 0 * 1024 + 1 * (y 0).val = 1024 * (t.val / 16) + (y 0).val; rw [e4]; omega)

/-- An index of the row-minimum array is in point `t`'s block iff each coordinate is in the block's range. -/
theorem mem_blk_row (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0_0).slice (win0_2.rect t)).set ↔ _
  rw [View.set_slice_whole, Rect.mem_set_unit]
  exact Iff.rfl

/-- Row `r` is covered by the last tile of sweep `r / 1024`, which flushes. -/
theorem cover_row (i : S16384x1.Idx) :
    ∃ t : Fin cfg0.N, (cfg0.win 2).flush t = true ∧ i ∈ ((cfg0.win 2).blk t).view.set := by
  have hN : cfg0.N = 256 := N_0
  have hi0 : (i 0).val < 16384 := (i 0).isLt
  have hi1 : (i 1).val < 1 := (i 1).isLt
  have hlt : 16 * ((i 0).val / 1024) + 15 < cfg0.N := by omega
  refine ⟨⟨16 * ((i 0).val / 1024) + 15, hlt⟩, (flush0_2 _).mpr (by show (16 * ((i 0).val / 1024) + 15) % 16 = 15; omega), ?_⟩
  rw [mem_blk_row]
  obtain ⟨-, -, -, -, e4, e5, -⟩ := idx_facts ⟨16 * ((i 0).val / 1024) + 15, hlt⟩
  intro a
  match a with
  | ⟨0, _⟩ =>
    show win0_2.index ⟨16 * ((i 0).val / 1024) + 15, hlt⟩ 0 * 1024 ≤ (i 0).val
      ∧ (i 0).val < win0_2.index ⟨16 * ((i 0).val / 1024) + 15, hlt⟩ 0 * 1024 + 1024
    rw [e4]
    show (16 * ((i 0).val / 1024) + 15) / 16 * 1024 ≤ (i 0).val ∧ (i 0).val < (16 * ((i 0).val / 1024) + 15) / 16 * 1024 + 1024
    omega
  | ⟨1, _⟩ =>
    show win0_2.index ⟨16 * ((i 0).val / 1024) + 15, hlt⟩ 1 * 1 ≤ (i 1).val
      ∧ (i 1).val < win0_2.index ⟨16 * ((i 0).val / 1024) + 15, hlt⟩ 1 * 1 + 1
    rw [e5]; omega

/-- So the row-minimum array ends as `rowArr`. -/
theorem final_row (c : Dev nD) : (dats m 0 c).arrAt 2 cfg0.N = rowArr m c :=
  (dats m 0 c).arrAt_eq_of_cover 2 (rowArr m c) (flushed_row m c) cover_row

/-! ## The column-minimum array (window 3) -/

/-- What tile `(i, j)` leaves in the column-minimum buffer, at local column `y`, is `colArr` at `(i, 0, 1024 j + y)`. -/
theorem colOut_at (c : Dev nD) (t : Fin cfg0.N) (y : S1x1x1024.Idx) (r : S16x1x16384.Idx)
    (h0 : (r 0).val = t.val / 16) (h2 : (r 2).val = 1024 * (t.val % 16) + (y 2).val) :
    (outsAt0 m c t.val t.isLt).2.1 y = colArr m c r := by
  obtain ⟨u, v, q, rfl⟩ : ∃ (u v : Fin 1) (q : Fin 1024), y = ix3 u v q := ⟨y 0, y 1, y 2, eq_ix3 y⟩
  obtain rfl : u = 0 := Subsingleton.elim _ _
  obtain rfl : v = 0 := Subsingleton.elim _ _
  rw [colOut_value m c t q]
  unfold colArr
  exact congrArg₂ (colMinBlock (P m c) (G m c)) (Fin.ext h0.symm) (Fin.ext h2.symm)

/-- Every point writes back, to the column-minimum array, its block of `colArr`. -/
theorem flushed_col (c : Dev nD) (t : Fin cfg0.N) (hf : (cfg0.win 3).flush t = true) :
    (dats m 0 c).flushed 3 t = ((cfg0.win 3).blk t).view.read (Elt Ideal) (colArr m c) := by
  show (cfg0.win 3).cut (grid0.coords t) ((dats m 0 c).after 3 t) = _
  rw [after0_3]
  funext y
  show (outsAt0 m c t.val t.isLt).2.1 y = colArr m c (((cfg0.win 3).blk t).view.emb y)
  obtain ⟨-, -, -, -, -, -, e6, -, e8⟩ := idx_facts t
  exact colOut_at m c t y _
    (by show win0_3.index t 0 * 1 + 1 * (y 0).val = t.val / 16; rw [e6]; have : (y 0).val < 1 := (y 0).isLt; omega)
    (by show win0_3.index t 2 * 1024 + 1 * (y 2).val = 1024 * (t.val % 16) + (y 2).val; rw [e8]; omega)

/-- An index of the column-minimum array is in point `t`'s block iff each coordinate is in the block's range. -/
theorem mem_blk_col (t : Fin cfg0.N) (i : S16x1x16384.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Entry `(i, 0, col)` is covered by tile `(i, col / 1024)`; every point flushes. -/
theorem cover_col (i : S16x1x16384.Idx) :
    ∃ t : Fin cfg0.N, (cfg0.win 3).flush t = true ∧ i ∈ ((cfg0.win 3).blk t).view.set := by
  have hN : cfg0.N = 256 := N_0
  have hi0 : (i 0).val < 16 := (i 0).isLt
  have hi1 : (i 1).val < 1 := (i 1).isLt
  have hi2 : (i 2).val < 16384 := (i 2).isLt
  have hlt : 16 * (i 0).val + (i 2).val / 1024 < cfg0.N := by omega
  refine ⟨⟨16 * (i 0).val + (i 2).val / 1024, hlt⟩, flush0_3 _, ?_⟩
  rw [mem_blk_col]
  obtain ⟨-, -, -, -, -, -, e6, e7, e8⟩ := idx_facts ⟨16 * (i 0).val + (i 2).val / 1024, hlt⟩
  intro a
  match a with
  | ⟨0, _⟩ =>
    show win0_3.index ⟨16 * (i 0).val + (i 2).val / 1024, hlt⟩ 0 * 1 ≤ (i 0).val
      ∧ (i 0).val < win0_3.index ⟨16 * (i 0).val + (i 2).val / 1024, hlt⟩ 0 * 1 + 1
    rw [e6]
    show (16 * (i 0).val + (i 2).val / 1024) / 16 * 1 ≤ (i 0).val ∧ (i 0).val < (16 * (i 0).val + (i 2).val / 1024) / 16 * 1 + 1
    omega
  | ⟨1, _⟩ =>
    show win0_3.index ⟨16 * (i 0).val + (i 2).val / 1024, hlt⟩ 1 * 1 ≤ (i 1).val
      ∧ (i 1).val < win0_3.index ⟨16 * (i 0).val + (i 2).val / 1024, hlt⟩ 1 * 1 + 1
    rw [e7]; omega
  | ⟨2, _⟩ =>
    show win0_3.index ⟨16 * (i 0).val + (i 2).val / 1024, hlt⟩ 2 * 1024 ≤ (i 2).val
      ∧ (i 2).val < win0_3.index ⟨16 * (i 0).val + (i 2).val / 1024, hlt⟩ 2 * 1024 + 1024
    rw [e8]
    show (16 * (i 0).val + (i 2).val / 1024) % 16 * 1024 ≤ (i 2).val ∧ (i 2).val < (16 * (i 0).val + (i 2).val / 1024) % 16 * 1024 + 1024
    omega

/-- So the column-minimum array ends as `colArr`. -/
theorem final_col (c : Dev nD) : (dats m 0 c).arrAt 3 cfg0.N = colArr m c :=
  (dats m 0 c).arrAt_eq_of_cover 3 (colArr m c) (flushed_col m c) cover_col

end Cert.KernelIdeal.Arrays

end
-- ==== Proof.KernelRun.lean ====
/-
  The kernel's run, read: its scalar result as a function of the clouds and the two weight vectors.

  After the region the host reshapes the row-minimum array [16384, 1] to a vector, reshapes the column-minimum array
  [16, 1, 16384] to [16, 16384] and takes its minimum over the 16 row blocks from `+∞`, and then forms, for each direction,
  the weighted sum of the minima divided by the larger of the weights' sum and a small constant; the result is the sum of
  the two quotients (each multiplied by one). That last stretch (`hostTail`) is the same function the reference applies
  to its own two minimum vectors, so it is named once and never opened.
-/
import proofs.«157775_j26027501814344_2_alg».proof.Proof.Arrays
import Idealize.ShloMosaic.Lib.Pipeline.Value
import Idealize.ShloMosaic.Lib.StableHlo.Run
import Idealize.ShloMosaic.Lib.Tactic

noncomputable section

namespace Cert.KernelIdeal.KernelRun

open Cert.KernelIdeal Cert.KernelIdeal.Gen Cert.KernelIdeal.Sweep Cert.KernelIdeal.Arrays
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The stretch both programs end with: from the two vectors of minima `a` (per point of the first cloud) and `b` (per
    point of the second) and the two weight vectors, `1 · (Σ w₂ a / max (Σ w₂) ε) + 1 · (Σ w₃ b / max (Σ w₃) ε)`. -/
def hostTail (a b w2 w3 : S16384.Idx → Ideal .f32) : S_.Idx → Ideal .f32 :=
  addf
    (mulf (constant (F := Ideal) S_ .f32 0x3F800000#32)
      (Host.divf (F := Ideal)
        (Host.reduceAdd (F := Ideal) (mulf w2 a) (constant (F := Ideal) S_ .f32 0x00000000#32) reducesTo_S16384_S_d0 h_S_)
        (maximumf (Host.reduceAdd (F := Ideal) w2 (constant (F := Ideal) S_ .f32 0x00000000#32) reducesTo_S16384_S_d0 h_S_)
          (constant (F := Ideal) S_ .f32 0x3089705F#32))))
    (mulf (constant (F := Ideal) S_ .f32 0x3F800000#32)
      (Host.divf (F := Ideal)
        (Host.reduceAdd (F := Ideal) (mulf w3 b) (constant (F := Ideal) S_ .f32 0x00000000#32) reducesTo_S16384_S_d0 h_S_)
        (maximumf (Host.reduceAdd (F := Ideal) w3 (constant (F := Ideal) S_ .f32 0x00000000#32) reducesTo_S16384_S_d0 h_S_)
          (constant (F := Ideal) S_ .f32 0x3089705F#32))))

/-- The kernel's vector of row minima: the row-minimum array with its unit axis dropped. -/
def rowVec (c : Dev nD) : S16384.Idx → Ideal .f32 := shapeCast S16384 (rowArr m c) shapeCasts_S16384x1_S16384

/-- The kernel's vector of column minima: the column-minimum array as a [16, 16384] matrix, reduced by a minimum over
    its 16 rows from `+∞`. -/
def colVec (c : Dev nD) : S16384.Idx → Ideal .f32 :=
  Host.reduce (FloatOps.minimumf (F := Ideal) (φ := .f32)) (shapeCast S16x16384 (colArr m c) shapeCasts_S16x1x16384_S16x16384)
    (constant (F := Ideal) S_ .f32 0x7F800000#32) reducesTo_S16x16384_S16384_d0 h_S_

/-- The kernel's result. -/
def result (c : Dev nD) : Buf (Elt Ideal) ((c : Thread nD τ).loc main_v16) :=
  hostTail (rowVec m c) (colVec m c) (m ((c : Thread nD τ).loc main_arg2)) (m ((c : Thread nD τ).loc main_arg3))

/-- After the region the row-minimum array holds `rowArr`; -/
theorem arr_row (c : Dev nD) :
    Pipeline.withArrays (cfgs 0).spec c (V0 m c) (fun w => (dats m 0 c).arrAt w (cfgs 0).N) (Proc.devRef .tc main_v0_0)
      = rowArr m c :=
  (Pipeline.withArrays_arr spec0 launch0.win.arr_inj c _ _ 2).trans (final_row m c)

/-- the column-minimum array holds `colArr`; -/
theorem arr_col (c : Dev nD) :
    Pipeline.withArrays (cfgs 0).spec c (V0 m c) (fun w => (dats m 0 c).arrAt w (cfgs 0).N) (Proc.devRef .tc main_v0_1)
      = colArr m c :=
  (Pipeline.withArrays_arr spec0 launch0.win.arr_inj c _ _ 3).trans (final_col m c)

/-- and the weight vectors, which no window stages, are as launched. -/
theorem arr_w2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

theorem arr_w3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

-- the term below carries the 25 host operations after the region: unifying it takes more than the default budget
set_option maxHeartbeats 4000000 in
set_option maxRecDepth 8192 in
/-- The host operations after the region, applied to what the region leaves, give `result`. -/
theorem tail_eq (c : Dev nD) :
    Pipeline.afterTail₀ cfgs (dats m) 0 (V0 m) [hostOps1] c main_v16 = result m c := by
  unfold Pipeline.afterTail₀
  show StableHlo.after hostOps1 _ (Proc.devRef .tc main_v16) = _
  after_results
  rw [arr_row, arr_col, arr_w2, arr_w3]
  rfl

/-- Every weakly fair execution of the kernel's program terminates with its result at `result` and its four argument
    arrays unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference, read against the shared mathematics.

  The reference forms the whole 16384 × 16384 matrix of clamped squared distances — the two clouds' squared lengths
  broadcast along rows and columns and added, twice the matrix product of one cloud with the other's transpose subtracted,
  the result clamped below at zero — and reduces it by a minimum along each axis from `+∞`. Entry `(r, c)` is
  `sqdist P G r c`; the reduction along the columns is, at `r`, `rowMin P G r`, and along the rows, at `c`, `colMin P G c`:
  each is the greatest lower bound of the same family of entries.
-/
import proofs.«157775_j26027501814344_2_alg».proof.Proof.Gen.ReferenceIdeal.Read
import proofs.«157775_j26027501814344_2_alg».proof.Proof.LibMinReduce
import proofs.«157775_j26027501814344_2_alg».proof.Proof.Dist
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.MinReduce Chamfer

/-- The rows the first squared-length sum reads for entry `(r, c)`: point `r`'s coordinates. -/
theorem idx_p2 (r c : Fin 16384) (k : Fin 3) :
    idx_main_v1 (idx_main_v4 (idx_main_v6 (ix2 r c))) k = ix2 r k :=
  funext fun a => Fin.ext (by match a with | ⟨0, _⟩ => rfl | ⟨1, _⟩ => rfl)

/-- The rows the second squared-length sum reads for entry `(r, c)`: point `c`'s coordinates. -/
theorem idx_g2 (r c : Fin 16384) (k : Fin 3) :
    idx_main_v3 (idx_main_v5 (idx_main_v7 (ix2 r c))) k = ix2 c k :=
  funext fun a => Fin.ext (by match a with | ⟨0, _⟩ => rfl | ⟨1, _⟩ => rfl)

/-- The left factor of the matrix product's term `k` at entry `(r, c)`. -/
theorem idx_l (r c : Fin 16384) (k : Fin 3) : lidx_main_v10 (ix2 r c) k = ix2 r k :=
  funext fun a => Fin.ext (by match a with | ⟨0, _⟩ => rfl | ⟨1, _⟩ => rfl)

/-- The right factor, read through the transpose. -/
theorem idx_r (r c : Fin 16384) (k : Fin 3) : idx_main_v9 (ridx_main_v10 (ix2 r c) k) = ix2 c k :=
  funext fun a => Fin.ext (by match a with | ⟨0, _⟩ => rfl | ⟨1, _⟩ => rfl)

/-- Entry `(r, c)` of the reference's distance matrix is the clamped squared distance between the two points. -/
theorem dist_apply (x0 x1 : (⟨S16384x3, .f32⟩ : BufTy).Contents (Elt Ideal)) (r c : Fin 16384) :
    val_main_v15 (F := Ideal) x0 x1 (ix2 r c) = sqdist x0 x1 r c := by
  unfold sqdist sqnorm dotp
  rw [val_main_v15_apply, val_main_v13_apply, val_main_v8_apply, val_main_v6_apply, val_main_v4_apply, val_main_v1_apply,
    val_main_v7_apply, val_main_v5_apply, val_main_v3_apply, val_main_v12_apply, val_main_v11_apply, val_main_v10_apply,
    val_main_v14_apply]
  simp only [idx_p2, idx_g2, idx_l, idx_r, val_main_v0_apply, val_main_v2_apply, val_main_v9_apply, val_main_cst_apply,
    val_main_cst_0_apply, val_main_cst_1_apply, val_main_cst_2_apply, Ideal.mulf_def, Ideal.addf_def, Ideal.subf_def,
    Ideal.maximumf_def, Ideal.ofBits_def, Ideal.ofBits_zero_f32, zero_add]

/-- The reference's minimum along the columns is, at `r`, the least distance from point `r` of the first cloud. -/
theorem rowMin_eq (x0 x1 : (⟨S16384x3, .f32⟩ : BufTy).Contents (Elt Ideal)) (r : Fin 16384) :
    val_main_v16 (F := Ideal) x0 x1 (ix1 r) = rowMin x0 x1 r :=
  eq_of_forall_le_iff fun z => by
    unfold val_main_v16 val_main_cst_3
    rw [le_hostReduce_min _ reducesTo_S16384x16384_S16384_d1 (by decide) h_S_ (ix1 r) z, le_rowMin]
    have e : ∀ k : Fin 16384, (by decide : S16384x16384.Reduces [1] S16384).lift (ix1 r) k = ix2 r k := fun k =>
      funext fun a => Fin.ext (by match a with | ⟨0, _⟩ => rfl | ⟨1, _⟩ => rfl)
    constructor
    · intro h c; have := h c; rwa [e c, dist_apply] at this
    · intro h; exact fun (k : Fin 16384) => by rw [e k, dist_apply]; exact h k

/-- The reference's minimum along the rows is, at `c`, the least distance from point `c` of the second cloud. -/
theorem colMin_eq (x0 x1 : (⟨S16384x3, .f32⟩ : BufTy).Contents (Elt Ideal)) (c : Fin 16384) :
    val_main_v17 (F := Ideal) x0 x1 (ix1 c) = colMin x0 x1 c :=
  eq_of_forall_le_iff fun z => by
    unfold val_main_v17 val_main_cst_4
    rw [le_hostReduce_min _ reducesTo_S16384x16384_S16384_d0 (by decide) h_S_ (ix1 c) z, le_colMin]
    have e : ∀ k : Fin 16384, (by decide : S16384x16384.Reduces [0] S16384).lift (ix1 c) k = ix2 k c := fun k =>
      funext fun a => Fin.ext (by match a with | ⟨0, _⟩ => rfl | ⟨1, _⟩ => rfl)
    constructor
    · intro h r; have := h r; rwa [e r, dist_apply] at this
    · intro h; exact fun (k : Fin 16384) => by rw [e k, dist_apply]; exact h k

end Cert.ReferenceIdeal.RefValue

end
-- ==== Proof.LibInnerUnitAxis.lean ====
/-
  Casts that drop a unit axis which is not the leading one, read at an index given by its coordinates: a one-column
  matrix `[a, 1]` cast to the vector `[a]`, and a stack `[a, 1, b]` cast to the matrix `[a, b]`. In both the row-major position
  is unchanged because the dropped axis contributes a factor one and a coordinate zero.
-/
import Idealize.ShloMosaic.Lib.Pipeline.Value
import Idealize.ShloMosaic.Lib.ValueIdx

noncomputable section

namespace Idealize.ShloMosaic.InnerUnitAxis

open Idealize.ShloMosaic Idealize.ShloMosaic.ValueIdx

variable {α : Type}

/-- An `[a, 1]` column cast to an `[a]` vector reads, at `i`, the column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, b]` stack cast to an `[a, b]` matrix reads, at `(i, j)`, the stack at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.InnerUnitAxis

end
-- ==== Proof.Bridge.lean ====
/-
  The two programs compute one function.

  The kernel's vector of row minima is the reference's: at each point of the first cloud both are the least distance to
  the second cloud (the kernel's by the sweep over column blocks, the reference's by one reduction). The kernel's vector
  of column minima is the reference's: the minimum over the 16 row blocks of the per-block least distances is the least
  distance over all 16384 points. Both programs then apply the same closing stretch to those two vectors and the two
  weight vectors, so their results agree. Nothing here uses that the inputs are finite: the laws are those of the order on
  the extended reals.
-/
import proofs.«157775_j26027501814344_2_alg».proof.Proof.KernelRun
import proofs.«157775_j26027501814344_2_alg».proof.Proof.RefValue
import proofs.«157775_j26027501814344_2_alg».proof.Proof.LibInnerUnitAxis
import proofs.«157775_j26027501814344_2_alg».proof.Proof.LibMinReduce

noncomputable section

namespace Cert.Proof.Bridge

open Cert.KernelIdeal Cert.KernelIdeal.Gen Cert.KernelIdeal.Sweep Cert.KernelIdeal.Arrays Cert.KernelIdeal.KernelRun
open Idealize.ShloMosaic Idealize.ShloMosaic.TcCoe Idealize.SL.Sem
open Idealize.ShloMosaic.ValueIdx Idealize.ShloMosaic.MinReduce Idealize.ShloMosaic.InnerUnitAxis Chamfer

variable (m : (ℓ : Loc nD τ sig) → Buf (Elt Ideal) ℓ)

/-- The kernel's row minima are the reference's minimum along the columns. -/
theorem rowVec_eq (c : Dev nD) :
    rowVec m c = Cert.ReferenceIdeal.Read.val_main_v16 (F := Ideal) (P m c) (G m c) := by
  funext j
  obtain ⟨r, rfl⟩ : ∃ r : Fin 16384, j = ix1 r := ⟨j 0, eq_ix1 j⟩
  unfold rowVec
  rw [shapeCast_a1_a_apply, Cert.ReferenceIdeal.RefValue.rowMin_eq]
  rfl

/-- The kernel's column minima — the minimum over the 16 row blocks of the per-block minima — are the reference's minimum
    along the rows. -/
theorem colVec_eq (c : Dev nD) :
    colVec m c = Cert.ReferenceIdeal.Read.val_main_v17 (F := Ideal) (P m c) (G m c) := by
  funext j
  obtain ⟨cc, rfl⟩ : ∃ cc : Fin 16384, j = ix1 cc := ⟨j 0, eq_ix1 j⟩
  rw [Cert.ReferenceIdeal.RefValue.colMin_eq]
  refine colMin_of_blocks (P m c) (G m c) cc _ fun z => ?_
  unfold colVec
  rw [le_hostReduce_min _ reducesTo_S16x16384_S16384_d0 (by decide) h_S_ (ix1 cc) z]
  have e : ∀ k : Fin 16, (by decide : S16x16384.Reduces [0] S16384).lift (ix1 cc) k = ix2 k cc := fun k =>
    funext fun a => Fin.ext (by match a with | ⟨0, _⟩ => rfl | ⟨1, _⟩ => rfl)
  constructor
  · intro h i
    have := h i
    rw [e i, shapeCast_a1b_ab_apply] at this
    exact this
  · intro h
    exact fun (k : Fin 16) => by rw [e k, shapeCast_a1b_ab_apply]; exact h k

/-- The reference's result is the shared closing stretch of its two minimum vectors and the weights. -/
theorem ref_tail (x0 x1 : (⟨Cert.ReferenceIdeal.S16384x3, .f32⟩ : BufTy).Contents (Elt Ideal))
    (x2 x3 : (⟨Cert.ReferenceIdeal.S16384, .f32⟩ : BufTy).Contents (Elt Ideal)) :
    Cert.ReferenceIdeal.Read.val_main_v30 (F := Ideal) x0 x1 x2 x3
      = hostTail (Cert.ReferenceIdeal.Read.val_main_v16 (F := Ideal) x0 x1)
          (Cert.ReferenceIdeal.Read.val_main_v17 (F := Ideal) x0 x1) x2 x3 := rfl

/-- So the kernel's result is the reference's function of the same four arrays. -/
theorem result_eq (c : Dev nD) :
    result m c = Cert.ReferenceIdeal.Read.val_main_v30 (F := Ideal) (P m c) (G m c)
      (m ((c : Thread nD τ).loc main_arg2)) (m ((c : Thread nD τ).loc main_arg3)) := by
  unfold result
  rw [rowVec_eq, colVec_eq]
  exact (ref_tail _ _ _ _).symm

end Cert.Proof.Bridge

end
-- ==== Proof.lean ====
/-
  A bidirectional nearest-neighbour ("Chamfer") distance between two clouds `P`, `G` of 16384 three-coordinate points with
  weights `w_P`, `w_G`:
      Σ_r w_P(r) · min_c d(r, c) / max (Σ w_P, ε)  +  Σ_c w_G(c) · min_r d(r, c) / max (Σ w_G, ε),
  `d(r, c) = max ((|P_r|² + |G_c|²) − 2 ⟨P_r, G_c⟩, 0)` the clamped squared distance.

  The reference forms the whole 16384 × 16384 matrix `d` and takes one minimum along each axis. The kernel sweeps a 16 × 16
  grid of 1024 × 1024 tiles once: for the row direction it carries a column of running minima across each sweep of 16
  column blocks, starting from `+∞`, and writes it out after the last; for the column direction it writes each tile's column
  minima to its own block of a [16, 1, 16384] array, and the host takes the minimum over the 16 row blocks afterwards. At
  the extended reals the two agree because a minimum over a partitioned index set is the minimum of the parts' minima
  (with `+∞` the identity), a fact of the order alone — so the precondition that the inputs are finite is never opened — and
  because the tile's entries are the matrix's: the same sums of three products, the same grouping, the same constants.

  The modules: `Dist` (the mathematics, free of either program), `TileValue` (one tile read entry by entry), `Pieces` (what
  each control case of the body leaves), `Sweep` (the invariant of a sweep, by induction on the grid point), `Arrays` (the two
  result arrays as whole-array functions), `KernelRun` (the host operations after the region), `RefValue` (the reference read
  against the same mathematics), `Bridge` (the two results are one function). The idealization rewrote nothing, so that
  claim is trivial.
-/
import proofs.«157775_j26027501814344_2_alg».proof.Defs
import proofs.«157775_j26027501814344_2_alg».proof.Proof.Gen.Kernel
import proofs.«157775_j26027501814344_2_alg».proof.Proof.Gen.Kernel.Frame
import proofs.«157775_j26027501814344_2_alg».proof.Proof.Gen.KernelIdeal
import proofs.«157775_j26027501814344_2_alg».proof.Proof.Gen.KernelIdeal.Frame
import proofs.«157775_j26027501814344_2_alg».proof.Proof.Gen.ReferenceIdeal
import proofs.«157775_j26027501814344_2_alg».proof.Proof.Gen.ReferenceIdeal.Run
import proofs.«157775_j26027501814344_2_alg».proof.Proof.Gen.ReferenceIdeal.Read
import proofs.«157775_j26027501814344_2_alg».proof.Proof.Gen.Pre_finite_inputs
import proofs.«157775_j26027501814344_2_alg».proof.Proof.RefRun
import proofs.«157775_j26027501814344_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to its composed term with its arguments unchanged; the frame drops the result. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals, from memories that agree on the four arguments, the kernel ends at its result and the reference
    at the same function of the same arrays. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2]
  exact (Cert.Proof.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
